-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S600000 .f32) (main_arg3 : FVec F S128x128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S2000x128 : Shape := ⟨2, ![2000, 128]⟩

abbrev nBuf : Space → Nat
  | .hbm => 28
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x1, .f32⟩
  | .hbm, ⟨19, _⟩ => ⟨S600000x128, .f32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S128x128, .f32⟩
  | .hbm, ⟨26, _⟩ => ⟨S128x128, .f32⟩
  | .hbm, ⟨27, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 30
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x1, .f32⟩
  | .hbm, ⟨19, _⟩ => ⟨S600000x128, .f32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S128x128, .f32⟩
  | .hbm, ⟨26, _⟩ => ⟨S50000x128, .f32⟩
  | .hbm, ⟨27, _⟩ => ⟨S128x128, .f32⟩
  | .hbm, ⟨28, _⟩ => ⟨S50000x128, .f32⟩
  | .hbm, ⟨29, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibRowProduct.lean ====
/-
  The dense product of two matrices of extended reals, as one whole-array function.

  For `X : [a, K]` and `W : [K, b]` the product is, at the entry `(r, q)`, the sum over `k < K` of
  `X (r, k) · W (k, q)` (`rowProduct`).  Sums and products on the extended reals are those of a commutative
  monoid, so the order and grouping of the sum never matter and no entry need be finite.

  Two readings of that one function are joined here, for any extents and any float formats of the operands:
  • the host's `dot_general` contracting the one shared axis IS the product, as whole arrays
    (`dotGeneral_eq_rowProduct`) — the dimension numbers enter only through four coordinate facts (which operand
    coordinate is the output's, which is the contraction's), so the lemma serves any record;
  • a product into a zero accumulator whose left operand has first passed through a change of float format
    (the identity on the extended reals) is, at any entry, the same sum (`matmul_trunc_entry`).
  Since entry `(r, q)` reads only row `r` of `X`, a row block of the product is the product of the same row
  block of `X` with `W`: a grid over row blocks computes the product block by block, and a certificate reads
  the blocks' entries with the second lemma and the whole array with the first.
  (It imports LibRowOps.lean, which sits beside it.)
-/
import proofs.«140040_j16604343566550_1_alg».proof.Proof.LibRowOps

noncomputable section

namespace Cert.RowProduct

open Idealize.ShloMosaic Idealize.ShloMosaic.ValueIdx
open scoped BigOperators

/-- The matrix product `X · W`, entry by entry: `(X · W) (r, q) = ∑ k, X (r, k) · W (k, q)`. -/
def rowProduct {a K b : ℕ} {φ₁ φ₂ : FTy} (x : FVec Ideal ⟨2, ![a, K]⟩ φ₁) (w : FVec Ideal ⟨2, ![K, b]⟩ φ₂) :
    FVec Ideal ⟨2, ![a, b]⟩ .f32 :=
  fun i => ∑ k : Fin K, x (ix2 (i 0) k) * w (ix2 k (i 1))

theorem rowProduct_entry {a K b : ℕ} {φ₁ φ₂ : FTy} (x : FVec Ideal ⟨2, ![a, K]⟩ φ₁) (w : FVec Ideal ⟨2, ![K, b]⟩ φ₂)
    (r : Fin a) (q : Fin b) : rowProduct x w (ix2 r q) = ∑ k : Fin K, x (ix2 r k) * w (ix2 k q) := rfl

/-- The host's product contracting the shared axis is the product. -/
theorem dotGeneral_eq_rowProduct {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x : FVec Ideal ⟨2, ![a, K]⟩ φ₁) (w : FVec Ideal ⟨2, ![K, b]⟩ φ₂) :
    Host.dotGeneral (F := Ideal) d prec x w = rowProduct x w := by
  funext i
  obtain ⟨r, q, rfl⟩ : ∃ (r : Fin a) (q : Fin b), i = ix2 r q := ⟨i 0, i 1, eq_ix2 i⟩
  exact Cert.RowOps.dotGeneral_entry d hr hs hl0 hl1 hr0 hr1 prec x w r q

/-- A product into a zero accumulator whose left operand was first narrowed to another float format: on the
    extended reals the narrowing is the identity, so the entry is the plain sum over the contracted axis. -/
theorem matmul_trunc_entry {a K b : ℕ} {φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x : FVec Ideal ⟨2, ![a, K]⟩ .f32) (w : FVec Ideal ⟨2, ![K, b]⟩ φ₂) (h : FTy.bits .bf16 < FTy.bits .f32)
    (j : (⟨2, ![a, b]⟩ : Shape).Idx) :
    matmul d none (truncf .bf16 x h) w (constant (F := Ideal) ⟨2, ![a, b]⟩ .f32 0x00000000#32) j
      = ∑ k : Fin K, x (ix2 (j 0) k) * w (ix2 k (j 1)) := by
  obtain ⟨r, q, rfl⟩ : ∃ (r : Fin a) (q : Fin b), j = ix2 r q := ⟨j 0, j 1, eq_ix2 j⟩
  exact (Cert.RowOps.matmul_zero_entry d hr hs hl0 hl1 hr0 hr1 none (truncf .bf16 x h) w r q).trans
    (Finset.sum_congr rfl fun k _ => rfl)

end Cert.RowProduct

end
-- ==== Proof.LibProductPair.lean ====
/-
  The sum of two dense matrix products on the extended reals, `P · U + X · W`, as one whole-array function.

  For `P, X : [a, K]` and `U, W : [K, b]` the entry `(r, q)` is
  `∑ k, P (r, k) · U (k, q) + ∑ k, X (r, k) · W (k, q)` (`productPair`).  Only the addition and the
  multiplication of the extended reals enter, each product summed on its own: no distributive law is used, so no
  entry need be finite.

  Three readings of that one function are joined here, for any extents:
  • the host's two `dot_general`s contracting the shared axis, added, ARE the function as whole arrays
    (`host_pair_eq`);
  • two products into zero accumulators whose four operands first passed through a narrowing of the float format
    (the identity on the extended reals), added, are the function at any entry (`narrowed_pair_entry`);
  • entry `(r, q)` reads only row `r` of `P` and of `X`: if a block's rows are rows of the whole arrays, the
    block's function at a block entry is the whole arrays' function at the array entry (`productPair_rows`).
  With the three a grid over row blocks that computes `P · U + X · W` block by block is set beside the host's
  expression.  (It imports LibRowProduct.lean, which sits beside it.)
-/
import proofs.«140040_j16604343566550_1_alg».proof.Proof.LibRowProduct

noncomputable section

namespace Cert.ProductPair

open Idealize.ShloMosaic Idealize.ShloMosaic.ValueIdx Cert.RowProduct
open scoped BigOperators

/-- `P · U + X · W`, entry by entry. -/
def productPair {a K b : ℕ} (p x : FVec Ideal ⟨2, ![a, K]⟩ .f32) (u w : FVec Ideal ⟨2, ![K, b]⟩ .f32) :
    FVec Ideal ⟨2, ![a, b]⟩ .f32 :=
  addf (rowProduct p u) (rowProduct x w)

theorem productPair_apply {a K b : ℕ} (p x : FVec Ideal ⟨2, ![a, K]⟩ .f32) (u w : FVec Ideal ⟨2, ![K, b]⟩ .f32)
    (i : (⟨2, ![a, b]⟩ : Shape).Idx) :
    productPair p x u w i
      = (∑ k : Fin K, p (ix2 (i 0) k) * u (ix2 k (i 1))) + ∑ k : Fin K, x (ix2 (i 0) k) * w (ix2 k (i 1)) := rfl

/-- The host's two products contracting the shared axis, added, are `P · U + X · W`. -/
theorem host_pair_eq {a K b : ℕ} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec prec' : Option ContractPrecision)
    (p x : FVec Ideal ⟨2, ![a, K]⟩ .f32) (u w : FVec Ideal ⟨2, ![K, b]⟩ .f32) :
    addf (Host.dotGeneral (F := Ideal) d prec p u) (Host.dotGeneral (F := Ideal) d prec' x w) = productPair p x u w := by
  rw [dotGeneral_eq_rowProduct d hr hs hl0 hl1 hr0 hr1 prec p u, dotGeneral_eq_rowProduct d hr hs hl0 hl1 hr0 hr1 prec' x w]
  rfl

/-- Two products into zero accumulators, every operand first narrowed to another float format, added: on the
    extended reals the narrowing is the identity, so the entry is that of `P · U + X · W`. -/
theorem narrowed_pair_entry {a K b : ℕ} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (p x : FVec Ideal ⟨2, ![a, K]⟩ .f32) (u w : FVec Ideal ⟨2, ![K, b]⟩ .f32) (h : FTy.bits .bf16 < FTy.bits .f32)
    (j : (⟨2, ![a, b]⟩ : Shape).Idx) :
    addf (matmul d none (truncf .bf16 p h) (truncf .bf16 u h) (constant (F := Ideal) ⟨2, ![a, b]⟩ .f32 0x00000000#32))
        (matmul d none (truncf .bf16 x h) (truncf .bf16 w h) (constant (F := Ideal) ⟨2, ![a, b]⟩ .f32 0x00000000#32)) j
      = productPair p x u w j := by
  rw [addf_apply, productPair_apply,
    matmul_trunc_entry d hr hs hl0 hl1 hr0 hr1 p (truncf .bf16 u h) h j,
    matmul_trunc_entry d hr hs hl0 hl1 hr0 hr1 x (truncf .bf16 w h) h j]
  rfl

/-- Row locality: an entry of `P · U + X · W` reads only one row of `P` and of `X`.  If row `j 0` of the blocks
    `p'`, `x'` is row `i 0` of `p`, `x`, and the two entries lie in one column, the blocks' function at `j` is the
    arrays' function at `i`. -/
theorem productPair_rows {a a' K b : ℕ} (p x : FVec Ideal ⟨2, ![a, K]⟩ .f32) (p' x' : FVec Ideal ⟨2, ![a', K]⟩ .f32)
    (u w : FVec Ideal ⟨2, ![K, b]⟩ .f32) (i : (⟨2, ![a, b]⟩ : Shape).Idx) (j : (⟨2, ![a', b]⟩ : Shape).Idx)
    (hp : ∀ k : Fin K, p' (ix2 (j 0) k) = p (ix2 (i 0) k)) (hx : ∀ k : Fin K, x' (ix2 (j 0) k) = x (ix2 (i 0) k))
    (hc : (j 1).val = (i 1).val) :
    productPair p' x' u w j = productPair p x u w i := by
  have hq : ∀ k : Fin K, (ix2 k (j 1) : (⟨2, ![K, b]⟩ : Shape).Idx) = ix2 k (i 1) := fun k =>
    funext fun ax => Fin.ext (by
      match ax with
      | ⟨0, _⟩ => rfl
      | ⟨1, _⟩ => exact hc)
  rw [productPair_apply, productPair_apply]
  refine congrArg₂ (· + ·) (Finset.sum_congr rfl fun k _ => ?_) (Finset.sum_congr rfl fun k _ => ?_)
  · exact congrArg₂ (· * ·) (hp k) (congrArg u (hq k))
  · exact congrArg₂ (· * ·) (hx k) (congrArg w (hq k))

end Cert.ProductPair

end
-- ==== Proof.RowBlocks.lean ====
/-
  The kernel's result array, as one function of the arrays the grid reads.

  The grid has 25 points.  Point `t` is handed rows `2000·t … 2000·t + 1999` of the aggregated messages and of the
  node features, and the two transposed weight matrices whole; it stores, into the same rows of the result,
  `(block of aggregated messages) · W_relᵀ + (block of node features) · W_rootᵀ`, each product into a zero accumulator.
  Entry `(r, q)` of `P · U + X · W` reads only row `r` of `P` and of `X`, so point `t`'s block IS rows
  `2000·t …` of the whole arrays' `P · U + X · W`; the 25 row blocks tile the 50000 rows, so after the run the result
  array is that function of the four arrays as the grid finds them.
-/
import proofs.«140040_j16604343566550_1_alg».proof.Proof.Gen.KernelIdeal.Value
import proofs.«140040_j16604343566550_1_alg».proof.Proof.LibProductPair
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.RowBlocks

open Cert.KernelIdeal Cert.KernelIdeal.Gen Cert.KernelIdeal.Value Idealize.ShloMosaic.ValueIdx Cert.ProductPair

/-! ## The block's product record: which coordinate is the output's, which the contraction's -/

theorem contr_rank : dot_S2000x128_S128x128_S2000x128_1_0_0_1_n_n.contr.rank = 1 := rfl
theorem contr_size : dot_S2000x128_S128x128_S2000x128_1_0_0_1_n_n.contr.size ⟨0, by decide⟩ = 128 := rfl

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_contr (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_contr (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## What a point stores, from the blocks it is handed -/

/-- The stored block at an entry: the two products of the handed blocks, added. -/
theorem stored_entry (x0 x1 : Vec Ideal S2000x128 .f32) (x2 x3 : Vec Ideal S128x128 .f32) (y : S2000x128.Idx) :
    k0_pay1 (F := Ideal) x0 x1 x2 x3 y = productPair (a := 2000) (K := 128) (b := 128) x0 x1 x2 x3 y := by
  unfold k0_pay1
  simp only [shapeCast_self]
  exact narrowed_pair_entry dot_S2000x128_S128x128_S2000x128_1_0_0_1_n_n contr_rank contr_size lhs_row lhs_contr
    rhs_contr rhs_col x0 x1 x2 x3 bitsLt_bf16_f32 y

/-- The stored block at an entry, when the handed row blocks are rows `2000·T …` of whole arrays `A`, `X` and the
    handed matrices are `U`, `W`: the whole arrays' `A · U + X · W` at the array entry in row `2000·T + (row in the
    block)` and the same column. -/
theorem stored_entry_of_rows (A X : FVec Ideal S50000x128 .f32) (U W : FVec Ideal S128x128 .f32)
    (x0 x1 : Vec Ideal S2000x128 .f32) (x2 x3 : Vec Ideal S128x128 .f32) (T : ℕ)
    (h0 : ∀ (z : S2000x128.Idx) (i : S50000x128.Idx), (i 0).val = T * 2000 + (z 0).val → (i 1).val = (z 1).val → x0 z = A i)
    (h1 : ∀ (z : S2000x128.Idx) (i : S50000x128.Idx), (i 0).val = T * 2000 + (z 0).val → (i 1).val = (z 1).val → x1 z = X i)
    (h2 : x2 = U) (h3 : x3 = W)
    (y : S2000x128.Idx) (i : S50000x128.Idx) (hi0 : (i 0).val = T * 2000 + (y 0).val) (hi1 : (i 1).val = (y 1).val) :
    k0_pay1 (F := Ideal) x0 x1 x2 x3 y = productPair (a := 50000) (K := 128) (b := 128) A X U W i := by
  subst h2 h3
  refine (stored_entry x0 x1 x2 x3 y).trans ?_
  exact productPair_rows A X x0 x1 x2 x3 i y (fun k => h0 _ _ hi0 rfl) (fun k => h1 _ _ hi0 rfl) hi1.symm

end Cert.KernelIdeal.RowBlocks

end
-- ==== Proof.ResultArray.lean ====
/-
  The result array after the run: the 25 row blocks glued.

  Window by window, at grid point `t`: the aggregated messages and the node features are handed in row blocks of
  2000 rows, block `t` being rows `2000·t … 2000·t + 1999` (all 128 columns); the two transposed weight matrices
  are handed whole at every point; the result is written back in the same row blocks.  So what point `t` writes
  back is block `t` of `A · U + X · W` of the whole arrays, every row of the result lies in exactly the block
  `row / 2000`, and the result array ends holding `A · U + X · W`.
-/
import proofs.«140040_j16604343566550_1_alg».proof.Proof.RowBlocks

noncomputable section

open Idealize.ShloMosaic Idealize.ShloMosaic.TcCoe Idealize.SL.Sem
open Idealize.ShloMosaic.Pipeline (Dat)

namespace Cert.KernelIdeal.ResultArray

open Cert.KernelIdeal Cert.KernelIdeal.Gen Cert.KernelIdeal.Value Idealize.ShloMosaic.ValueIdx Cert.ProductPair
open Cert.KernelIdeal.RowBlocks

variable (m : (ℓ : Loc nD τ sig) → Buf (Elt Ideal) ℓ) (ρ : Dev nD → PrngReg)

theorem origin : (![0, 0] : Fin 2 → Nat) = fun _ => 0 := funext fun a => by fin_cases a <;> rfl

/-- The block index of every window at every grid point: the row-blocked windows (aggregated messages, node
    features, result) are at block row `t`, column block 0; the weight matrices stay at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The handed blocks, read off the arrays as the grid finds them -/

/-- Block `t` of the aggregated messages is their rows `2000·t …`. -/
theorem rows_agg (c : Dev nD) (t : Fin cfg0.N) (z : S2000x128.Idx) (i : S50000x128.Idx)
    (h0 : (i 0).val = t.val * 2000 + (z 0).val) (h1 : (i 1).val = (z 1).val) :
    (iblk m c 0 t : Vec Ideal S2000x128 .f32) z = (V m c main_v16 : S50000x128.Idx → Elt Ideal .f32) i := by
  obtain ⟨e0, e1, -⟩ := block_index t
  have e : ((cfg0.win 0).blk t).view.emb z = i := by
    funext a; apply Fin.ext
    match a with
    | ⟨0, _⟩ => show win0_0.index t (0 : Fin 2) * 2000 + 1 * (z 0).val = (i 0).val; omega
    | ⟨1, _⟩ => show win0_0.index t (1 : Fin 2) * 128 + 1 * (z 1).val = (i 1).val; omega
  show V m c main_v16 (((cfg0.win 0).blk t).view.emb z) = _
  rw [e]

/-- Block `t` of the node features is their rows `2000·t …`. -/
theorem rows_x (c : Dev nD) (t : Fin cfg0.N) (z : S2000x128.Idx) (i : S50000x128.Idx)
    (h0 : (i 0).val = t.val * 2000 + (z 0).val) (h1 : (i 1).val = (z 1).val) :
    (iblk m c 1 t : Vec Ideal S2000x128 .f32) z = (V m c main_arg0 : S50000x128.Idx → Elt Ideal .f32) i := by
  obtain ⟨-, -, e2, e3, -⟩ := block_index t
  have e : ((cfg0.win 1).blk t).view.emb z = i := by
    funext a; apply Fin.ext
    match a with
    | ⟨0, _⟩ => show win0_1.index t (0 : Fin 2) * 2000 + 1 * (z 0).val = (i 0).val; omega
    | ⟨1, _⟩ => show win0_1.index t (1 : Fin 2) * 128 + 1 * (z 1).val = (i 1).val; omega
  show V m c main_arg0 (((cfg0.win 1).blk t).view.emb z) = _
  rw [e]

/-- The first transposed weight matrix is handed whole at every point. -/
theorem whole_wrel (c : Dev nD) (t : Fin cfg0.N) :
    (iblk m c 2 t : Vec Ideal S128x128 .f32) = (V m c main_v17 : S128x128.Idx → Elt Ideal .f32) := by
  obtain ⟨-, -, -, -, e4, e5, -⟩ := block_index t
  funext z
  have e : ((cfg0.win 2).blk t).view.emb z = z := by
    funext a; apply Fin.ext
    match a with
    | ⟨0, _⟩ => show win0_2.index t (0 : Fin 2) * 128 + 1 * (z 0).val = (z 0).val; omega
    | ⟨1, _⟩ => show win0_2.index t (1 : Fin 2) * 128 + 1 * (z 1).val = (z 1).val; omega
  show V m c main_v17 (((cfg0.win 2).blk t).view.emb z) = _
  rw [e]

/-- The second transposed weight matrix is handed whole at every point. -/
theorem whole_wroot (c : Dev nD) (t : Fin cfg0.N) :
    (iblk m c 3 t : Vec Ideal S128x128 .f32) = (V m c main_v18 : S128x128.Idx → Elt Ideal .f32) := by
  obtain ⟨-, -, -, -, -, -, e6, e7, -⟩ := block_index t
  funext z
  have e : ((cfg0.win 3).blk t).view.emb z = z := by
    funext a; apply Fin.ext
    match a with
    | ⟨0, _⟩ => show win0_3.index t (0 : Fin 2) * 128 + 1 * (z 0).val = (z 0).val; omega
    | ⟨1, _⟩ => show win0_3.index t (1 : Fin 2) * 128 + 1 * (z 1).val = (z 1).val; omega
  show V m c main_v18 (((cfg0.win 3).blk t).view.emb z) = _
  rw [e]

/-! ## The result -/

/-- `A · U + X · W` of the four arrays as the grid finds them: `A` the aggregated messages, `X` the node features,
    `U`, `W` the transposed weight matrices. -/
abbrev result (c : Dev nD) : FVec Ideal S50000x128 .f32 :=
  productPair (a := 50000) (K := 128) (b := 128) (V m c main_v16) (V m c main_arg0) (V m c main_v17) (V m c main_v18)

/-- What point `t` writes back is block `t` of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero origin]
  simp only [View.ld_unit_zero (S := S2000x128) origin, View.ld_unit_zero (S := S128x128) origin]
  obtain ⟨-, -, -, -, -, -, -, -, e8, e9⟩ := block_index t
  funext j
  show k0_pay1 (F := Ideal) (iblk m c 0 t) (iblk m c 1 t) (iblk m c 2 t) (iblk m c 3 t) j
    = result m c (((cfg0.win 4).blk t).view.emb j)
  refine stored_entry_of_rows (V m c main_v16) (V m c main_arg0) (V m c main_v17) (V m c main_v18)
    (iblk m c 0 t) (iblk m c 1 t) (iblk m c 2 t) (iblk m c 3 t) t.val
    (rows_agg m c t) (rows_x m c t) (whole_wrel m c t) (whole_wroot m c t) j (((cfg0.win 4).blk t).view.emb j) ?_ ?_
  · show win0_4.index t (0 : Fin 2) * 2000 + 1 * (j 0).val = t.val * 2000 + (j 0).val
    omega
  · show win0_4.index t (1 : Fin 2) * 128 + 1 * (j 1).val = (j 1).val
    omega

/-- An entry of the result array lies in point `t`'s block iff each coordinate lies in the block's range. -/
theorem mem_block (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v19).slice (win0_4.rect t)).set ↔ _
  rw [View.set_slice_whole, Rect.mem_set_unit]
  exact Iff.rfl

/-- Every entry lies in the block of the point `row / 2000`. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, e8, e9⟩ := block_index t
  refine ⟨t, flush0_4 t, ?_⟩
  rw [mem_block]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 128 ≤ (i 1).val ∧ (i 1).val < win0_4.index t (1 : Fin 2) * 128 + 128
    omega

/-- The result array after the run. -/
theorem final (c : Dev nD) : (dats m 0 c).arrAt 4 cfg0.N = result m c :=
  (dats m 0 c).arrAt_eq_of_cover 4 (result m c) (fun t _ => flushed_eq m c t) covered

/-- The run, read: the result array at `A · U + X · W` of the arrays as the grid finds them, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ResultArray

end
-- ==== Proof.Prefix.lean ====
/-
  The arrays the grid finds, as terms of the arguments.

  Before the grid starts the program has computed, by whole-array operations, the aggregated messages — row `n`
  is the sum over the edges `e` with destination `n` of `edge_attr e · x[src e]`: a row gather by source (a
  negative source index wrapped by the row count), a scaling by the edge weight broadcast along the row, a
  scatter-add by destination into zeros — and the transposes of the two weight matrices.  Here each is named as
  one term of the arguments; none is ever opened, since the reference computes the same terms.
-/
import proofs.«140040_j16604343566550_1_alg».proof.Proof.Gen.KernelIdeal.Frame
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.Prefix

open Cert.KernelIdeal Cert.KernelIdeal.Gen

/-- The aggregated messages: `x` the node features, `ei` the edge list (row 0 the sources, row 1 the
    destinations), `ea` the edge weights. -/
def aggregated (x : (⟨S50000x128, .f32⟩ : BufTy).Contents (Elt Ideal)) (ei : (⟨S2x600000, .i32⟩ : BufTy).Contents (Elt Ideal))
    (ea : (⟨S600000, .f32⟩ : BufTy).Contents (Elt Ideal)) : (⟨S50000x128, .f32⟩ : BufTy).Contents (Elt Ideal) :=
  Host.scatterAdd (F := Ideal) scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] ei slices_S2x600000_S1x600000_1_0) shapeCasts_S1x600000_S600000)) (mulf (Host.gather gather_S50000x128_S600000x1_S600000x128_1_0_n_n_0_1_1128 x (broadcastInDim S600000x1 ![0] bcast_S600000_S600000x1_0 (select (cmpi .slt (shapeCast _ (extractStridedSlice S1x600000 ![0, 0] ei slices_S2x600000_S1x600000_0_0) shapeCasts_S1x600000_S600000) (broadcastInDim S600000 ![] bcast_S_S600000 (constantI S_ 32 0#32))) (addi (shapeCast _ (extractStridedSlice S1x600000 ![0, 0] ei slices_S2x600000_S1x600000_0_0) shapeCasts_S1x600000_S600000) (broadcastInDim S600000 ![] bcast_S_S600000 (constantI S_ 32 50000#32))) (shapeCast _ (extractStridedSlice S1x600000 ![0, 0] ei slices_S2x600000_S1x600000_0_0) shapeCasts_S1x600000_S600000)))) (broadcastInDim S600000x128 ![0, 1] bcast_S600000x1_S600000x128_0_1 (broadcastInDim S600000x1 ![0] bcast_S600000_S600000x1_0 ea)))

/-- A weight matrix transposed. -/
def transposed (w : (⟨S128x128, .f32⟩ : BufTy).Contents (Elt Ideal)) : (⟨S128x128, .f32⟩ : BufTy).Contents (Elt Ideal) :=
  transpose S128x128 [1, 0] w transposes_S128x128_S128x128_1_0

variable (m : (ℓ : Loc nD τ sig) → Buf (Elt Ideal) ℓ)

/-- The grid finds the aggregated messages of the arguments. -/
theorem V_aggregated (c : Dev nD) :
    (V m c main_v16 : (⟨S50000x128, .f32⟩ : BufTy).Contents (Elt Ideal))
      = aggregated (m ((c : Thread nD τ).loc main_arg0)) (m ((c : Thread nD τ).loc main_arg1)) (m ((c : Thread nD τ).loc main_arg2)) := by
  show StableHlo.after hostOps0 (fun b => m (c, b)) (Proc.devRef .tc main_v16) = _
  after_results
  rfl

/-- The grid finds the first weight matrix transposed. -/
theorem V_wrelT (c : Dev nD) :
    (V m c main_v17 : (⟨S128x128, .f32⟩ : BufTy).Contents (Elt Ideal)) = transposed (m ((c : Thread nD τ).loc main_arg3)) := by
  dsimp only [Gen.V, Gen.hostOps0]
  after_results
  rfl

/-- The grid finds the second weight matrix transposed. -/
theorem V_wrootT (c : Dev nD) :
    (V m c main_v18 : (⟨S128x128, .f32⟩ : BufTy).Contents (Elt Ideal)) = transposed (m ((c : Thread nD τ).loc main_arg4)) := by
  dsimp only [Gen.V, Gen.hostOps0]
  after_results
  rfl

end Cert.KernelIdeal.Prefix

end
-- ==== Proof.lean ====
/-
  GraphConv with sum aggregation and no bias: `out = AGG · W_relᵀ + x · W_rootᵀ`, where row `n` of `AGG` is the sum,
  over the edges `e` with destination `n`, of `edge_attr e · x[src e]`.

  Both programs compute `AGG` and the two transposed weight matrices by the same sequence of whole-array operations
  (a row gather by source, a scaling by the edge weight, a scatter-add by destination into zeros; two transposes).
  They differ only in the dense tail.  The reference takes two whole products contracting the shared axis and adds
  them.  The kernel walks a grid of 25 row blocks of 2000 rows; at each it narrows the four handed blocks to bf16
  (the identity on the extended reals), takes the two products into zero accumulators, adds them and stores the block.
  Entry `(r, q)` of `A · U + X · W` is `∑ k, A (r, k) · U (k, q) + ∑ k, X (r, k) · W (k, q)` and reads only row `r` of
  `A` and of `X`, so the blocks are the rows of the whole function and tile it: both result arrays are
  `productPair AGG x W_relᵀ W_rootᵀ`.  Only sums and products of extended reals occur, each product summed on its
  own, so nothing needs the inputs to be finite and the precondition is never opened.  The common prefix is never
  opened either: the two programs' terms for it are the same term.
-/
import proofs.«140040_j16604343566550_1_alg».proof.Defs
import proofs.«140040_j16604343566550_1_alg».proof.Proof.Gen.Kernel
import proofs.«140040_j16604343566550_1_alg».proof.Proof.Gen.Kernel.Skeleton
import proofs.«140040_j16604343566550_1_alg».proof.Proof.Gen.Kernel.Launch
import proofs.«140040_j16604343566550_1_alg».proof.Proof.Gen.Kernel.Points
import proofs.«140040_j16604343566550_1_alg».proof.Proof.Gen.Kernel.Frame
import proofs.«140040_j16604343566550_1_alg».proof.Proof.Gen.KernelIdeal
import proofs.«140040_j16604343566550_1_alg».proof.Proof.Gen.KernelIdeal.Skeleton
import proofs.«140040_j16604343566550_1_alg».proof.Proof.Gen.KernelIdeal.Launch
import proofs.«140040_j16604343566550_1_alg».proof.Proof.Gen.KernelIdeal.Points
import proofs.«140040_j16604343566550_1_alg».proof.Proof.Gen.KernelIdeal.Frame
import proofs.«140040_j16604343566550_1_alg».proof.Proof.Gen.ReferenceIdeal
import proofs.«140040_j16604343566550_1_alg».proof.Proof.Gen.Pre_finite_inputs
import proofs.«140040_j16604343566550_1_alg».proof.Proof.Gen.KernelIdeal.Value
import proofs.«140040_j16604343566550_1_alg».proof.Proof.Gen.ReferenceIdeal.Run
import proofs.«140040_j16604343566550_1_alg».proof.Proof.ResultArray
import proofs.«140040_j16604343566550_1_alg».proof.Proof.Prefix
import Idealize.ShloMosaic.Adequacy
import Idealize.ShloMosaic.Init
import Idealize.ShloMosaic.Lib.StableHlo.Run

noncomputable section

namespace Cert.Proof

open Idealize.ShloMosaic Idealize.ShloMosaic.TcCoe Idealize.SL.Sem Idealize.ShloMosaic.StableHlo

/-! ## The reference's product record: which coordinate is the output's, which the contraction's -/

namespace HostProduct

open Cert.ReferenceIdeal

theorem contr_rank : dot_S50000x128_S128x128_S50000x128_1_0_0_1_n_n.contr.rank = 1 := rfl
theorem contr_size : dot_S50000x128_S128x128_S50000x128_1_0_0_1_n_n.contr.size ⟨0, by decide⟩ = 128 := rfl

theorem lhs_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem lhs_contr (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_contr (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

end HostProduct

/-! ## The kernel's result as a term of the arguments -/

open Cert.KernelIdeal.Prefix (aggregated transposed) in
/-- The kernel's result array is `A · U + X · W` with `A` the aggregated messages of the arguments, `X` the node
    features, `U`, `W` the transposed weight matrices. -/
theorem result_of_arguments (m : (ℓ : Loc Cert.KernelIdeal.nD Cert.KernelIdeal.τ Cert.KernelIdeal.sig) → Buf (Elt Ideal) ℓ)
    (c : Dev Cert.KernelIdeal.nD) :
    Cert.KernelIdeal.ResultArray.result m c
      = Cert.ProductPair.productPair (a := 50000) (K := 128) (b := 128)
          (aggregated (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)))
          (m ((c.tc : Thread Cert.KernelIdeal.nD Cert.KernelIdeal.τ).loc Cert.KernelIdeal.main_arg0))
          (transposed (m ((c.tc : Thread Cert.KernelIdeal.nD Cert.KernelIdeal.τ).loc Cert.KernelIdeal.main_arg3)))
          (transposed (m ((c.tc : Thread Cert.KernelIdeal.nD Cert.KernelIdeal.τ).loc Cert.KernelIdeal.main_arg4))) := by
  show Cert.ProductPair.productPair _ _ _ _ = _
  rw [Cert.KernelIdeal.Prefix.V_aggregated m c, Cert.KernelIdeal.Gen.V_main_arg0 m c,
    Cert.KernelIdeal.Prefix.V_wrelT m c, Cert.KernelIdeal.Prefix.V_wrootT m c]

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- The kernel's result array ends at `productPair` of the four arrays its grid finds — the aggregated messages,
    the node features, the two transposed weight matrices —, the reference's at the sum of its two whole products
    of the same four arrays (each array the same term of the arguments in both programs): one function. -/
theorem algebraic : Cert.algebraic_KernelIdeal_ReferenceIdeal := by
  intro m ρ m' ρ' _ hagree
  refine ⟨_, (θ_run Cert.KernelIdeal.defs _ _).mono (fun r h c => ⟨(h c).1.trans (result_of_arguments m c), (h c).2⟩)
    (Cert.KernelIdeal.ResultArray.run m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ProductPair.host_pair_eq Cert.ReferenceIdeal.dot_S50000x128_S128x128_S50000x128_1_0_0_1_n_n
    HostProduct.contr_rank HostProduct.contr_size HostProduct.lhs_row HostProduct.lhs_contr HostProduct.rhs_contr
    HostProduct.rhs_col none none
    (Cert.KernelIdeal.Prefix.aggregated (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg0))
    (Cert.KernelIdeal.Prefix.transposed (m ((c.tc : Thread Cert.KernelIdeal.nD Cert.KernelIdeal.τ).loc Cert.KernelIdeal.main_arg3)))
    (Cert.KernelIdeal.Prefix.transposed (m ((c.tc : Thread Cert.KernelIdeal.nD Cert.KernelIdeal.τ).loc Cert.KernelIdeal.main_arg4)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
